-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x4096, .bf16⟩
  | .hbm, ⟨7, _⟩ => ⟨S4096x4096, .bf16⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S16x512, .f32⟩
  | .local _ .vmem, ⟨5, _⟩ => ⟨S16x512, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S16x512_S16x512_0_0 : ∀ a, (![0, 0] : Fin 2 → Nat) a + S16x512.size a ≤ S16x512.size a
  h_S16x512 : 0 < S16x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Spec.lean ====
/-
  The low-rank-adapted linear layer as one function of its argument arrays, read at natural-number coordinates
  on the extended reals, and the one algebraic fact the certificate needs: a dot product over a contraction
  axis of 4096 entries is the sum, over the eight consecutive blocks of 512 entries, of the blocks' own dot
  products (addition of extended reals is associative and commutative, so no finiteness is needed).
-/
import Idealize.ShloMosaic.PureOps.Ideal
import Idealize.ShloMosaic.PureOps.Ideal.Laws
import Idealize.ShloMosaic.Lib.ValueIdx

noncomputable section

namespace Cert.LoraSpec

open Idealize.ShloMosaic Idealize.ShloMosaic.ValueIdx

/-- A rank-2 array read at natural-number coordinates (zero outside its extents: never consulted there). -/
def at2 {n0 n1 : Nat} (x : (⟨2, ![n0, n1]⟩ : Shape).Idx → EReal) (r c : Nat) : EReal :=
  if h : r < n0 ∧ c < n1 then x (ix2 ⟨r, h.1⟩ ⟨c, h.2⟩) else 0

/-- Inside the extents it is the array's entry. -/
theorem at2_of_lt {n0 n1 : Nat} (x : (⟨2, ![n0, n1]⟩ : Shape).Idx → EReal) (r c : Nat) (hr : r < n0) (hc : c < n1) :
    at2 x r c = x (ix2 ⟨r, hr⟩ ⟨c, hc⟩) := by
  unfold at2; rw [dif_pos ⟨hr, hc⟩]

theorem at2_val {n0 n1 : Nat} (x : (⟨2, ![n0, n1]⟩ : Shape).Idx → EReal) (r : Fin n0) (c : Fin n1) :
    at2 x r.val c.val = x (ix2 r c) := at2_of_lt x r.val c.val r.isLt c.isLt

/-- A sum over `n` consecutive blocks of `m` entries is the sum over the `n * m` entries. -/
theorem sum_blocks {M : Type*} [AddCommMonoid M] (F : Nat → M) (m : Nat) :
    ∀ n : Nat, ∑ kb ∈ Finset.range n, ∑ l : Fin m, F (kb * m + l.val) = ∑ k ∈ Finset.range (n * m), F k
  | 0 => by simp
  | n + 1 => by
    rw [Finset.sum_range_succ, sum_blocks F m n, Nat.succ_mul, Finset.sum_range_add,
      ← Finset.sum_range (fun l => F (n * m + l))]

/-- Block `kb`'s share of the dot product of two rows: its 512 products. -/
def blockDot (f g : Nat → EReal) (kb : Nat) : EReal := ∑ l : Fin 512, f (kb * 512 + l.val) * g (kb * 512 + l.val)

/-- The dot product accumulated through blocks `0 … k`. -/
def accDot (f g : Nat → EReal) (k : Nat) : EReal := ∑ kb ∈ Finset.range (k + 1), blockDot f g kb

theorem accDot_zero (f g : Nat → EReal) : accDot f g 0 = blockDot f g 0 := by
  unfold accDot; rw [Finset.sum_range_one]

theorem accDot_succ (f g : Nat → EReal) (k : Nat) : accDot f g (k + 1) = accDot f g k + blockDot f g (k + 1) :=
  Finset.sum_range_succ _ _

/-- After the eighth block the accumulated dot product is the whole one. -/
theorem accDot_last (f g : Nat → EReal) : accDot f g 7 = ∑ k : Fin 4096, f k.val * g k.val := by
  unfold accDot blockDot
  rw [sum_blocks (fun k => f k * g k) 512 8, Finset.sum_range]

/-- The scale `alpha / rank = 2`, as both programs spell it. -/
abbrev two : EReal := Ideal.ofBits .f32 0x40000000#32

/-- Entry `(r, n)` of the layer's result: `x·Wᵀ + b + ((x·Aᵀ)·Bᵀ)·2`, grouped as both programs group it. -/
def lora (X : (⟨2, ![8192, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨2, ![1, 4096]⟩ : Shape).Idx → EReal) (r n : Nat) : EReal :=
  ((∑ k : Fin 4096, at2 X r k.val * at2 W n k.val) + at2 bias 0 n)
    + (∑ q : Fin 16, (∑ k : Fin 4096, at2 X r k.val * at2 A q.val k.val) * at2 B n q.val) * two

end Cert.LoraSpec

end
-- ==== Proof.Pieces.lean ====
/-
  What each control case of the kernel body leaves in the two accumulators it carries along the contraction axis
  and in the output block, as values: the body's stores read back. At the first block of the contraction axis the
  accumulators restart from zero; at every block each adds the product of its operand blocks; at the last block the
  output block is the epilogue of the two updated accumulators.
-/
import proofs.«174200_j22548578304347_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A block that is neither first nor last on the contraction axis leaves, in the first carried accumulator
    (which held `xs0`), `xs0` plus the product of the two operand blocks … -/
theorem sout_B_0 (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .f32) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : ¬cond0_1 i) (x0 : Vec F S1024x512 .bf16) (x1 : Vec F S1024x512 .bf16) (x2 : Vec F S16x512 .f32) (x3 : Vec F S1024x16 .f32) (x4 : Vec F S1x1024 .f32) (xs0 : Vec F S1024x1024 .f32) (xs1 : Vec F S1024x16 .f32) :
    sout0_B_0 c i a3 h3 a4 h4 a5 h5 a6 h6 a7 h7 a8 h8 a9 h9 a10 h10 hc0 hc1 x0 x1 x2 x3 x4 xs0 xs1 = k0_pay4 x0 x1 xs0 := by
  unfold sout0_B_0
  rw [View.read_writes_eq_canon _ _ _ (scover0_B_0 c i a3 h3 a4 h4 a5 h5 a6 h6 a7 h7 a8 h8 a9 h9 a10 h10 hc0 hc1 x0 x1 x2 x3 x4 xs0 xs1)]
  unfold kernelRun0_B
  dsimp only
  rw [View.canon_unit_zero hz]
  simp only [View.readAt_eq_ld, h3.read_unread, h4.read_unread, h9.read_unread, View.ld_unit_zero (S := S1024x512) hz,
    View.ld_unit_zero (S := S1024x1024) hz]

/-- … and in the second (which held `xs1`), `xs1` plus the product of the row block with the adapter's block. -/
theorem sout_B_1 (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .f32) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : ¬cond0_1 i) (x0 : Vec F S1024x512 .bf16) (x1 : Vec F S1024x512 .bf16) (x2 : Vec F S16x512 .f32) (x3 : Vec F S1024x16 .f32) (x4 : Vec F S1x1024 .f32) (xs0 : Vec F S1024x1024 .f32) (xs1 : Vec F S1024x16 .f32) :
    sout0_B_1 c i a3 h3 a4 h4 a5 h5 a6 h6 a7 h7 a8 h8 a9 h9 a10 h10 hc0 hc1 x0 x1 x2 x3 x4 xs0 xs1 = k0_pay5 x0 x2 xs1 := by
  unfold sout0_B_1
  rw [View.read_writes_eq_canon _ _ _ (scover0_B_1 c i a3 h3 a4 h4 a5 h5 a6 h6 a7 h7 a8 h8 a9 h9 a10 h10 hc0 hc1 x0 x1 x2 x3 x4 xs0 xs1)]
  unfold kernelRun0_B
  dsimp only
  rw [View.canon_unit_zero hz]
  simp only [View.readAt_eq_ld, h3.read_unread, h5.read_unread, h10.read_unread, View.ld_unit_zero (S := S1024x512) hz,
    View.ld_unit_zero (S := S16x512) hz, View.ld_unit_zero (S := S1024x16) hz]

/-- The last block on the contraction axis updates the two accumulators in the same way … -/
theorem sout_C_0 (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .f32) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x512 .bf16) (x1 : Vec F S1024x512 .bf16) (x2 : Vec F S16x512 .f32) (x3 : Vec F S1024x16 .f32) (x4 : Vec F S1x1024 .f32) (xs0 : Vec F S1024x1024 .f32) (xs1 : Vec F S1024x16 .f32) :
    sout0_C_0 c i a3 h3 a4 h4 a5 h5 a6 h6 a7 h7 a8 h8 a9 h9 a10 h10 hc0 hc1 x0 x1 x2 x3 x4 xs0 xs1 = k0_pay4 x0 x1 xs0 := by
  unfold sout0_C_0
  rw [View.read_writes_eq_canon _ _ _ (scover0_C_0 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h9.read_unread, View.ld_unit_zero (S := S1024x512) hz,
    View.ld_unit_zero (S := S1024x1024) hz]

theorem sout_C_1 (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .f32) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x512 .bf16) (x1 : Vec F S1024x512 .bf16) (x2 : Vec F S16x512 .f32) (x3 : Vec F S1024x16 .f32) (x4 : Vec F S1x1024 .f32) (xs0 : Vec F S1024x1024 .f32) (xs1 : Vec F S1024x16 .f32) :
    sout0_C_1 c i a3 h3 a4 h4 a5 h5 a6 h6 a7 h7 a8 h8 a9 h9 a10 h10 hc0 hc1 x0 x1 x2 x3 x4 xs0 xs1 = k0_pay5 x0 x2 xs1 := by
  unfold sout0_C_1
  rw [View.read_writes_eq_canon _ _ _ (scover0_C_1 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h5.read_unread, h10.read_unread, View.ld_unit_zero (S := S1024x512) hz,
    View.ld_unit_zero (S := S16x512) hz, View.ld_unit_zero (S := S1024x16) hz]

/-- … and then stores the output block: the epilogue of the two UPDATED accumulators (it reads them back after their
    stores), the second factor's block and the bias block. -/
theorem out_C_5 (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .f32) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x512 .bf16) (x1 : Vec F S1024x512 .bf16) (x2 : Vec F S16x512 .f32) (x3 : Vec F S1024x16 .f32) (x4 : Vec F S1x1024 .f32) (xs0 : Vec F S1024x1024 .f32) (xs1 : Vec F S1024x16 .f32) :
    out0_C_5 c i a3 h3 a4 h4 a5 h5 a6 h6 a7 h7 a8 h8 a9 h9 a10 h10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz, View.readCov_unit_zero (S := S1024x16) _ hz, View.readCov_unit_zero (S := S1024x1024) _ hz]
  simp only [View.readAt_eq_ld, h3.read_unread, h4.read_unread, h5.read_unread, h6.read_unread, h7.read_unread, h9.read_unread,
    h10.read_unread, View.ld_unit_zero (S := S1024x512) hz, View.ld_unit_zero (S := S16x512) hz,
    View.ld_unit_zero (S := S1024x16) hz, View.ld_unit_zero (S := S1024x1024) hz, View.ld_unit_zero (S := S1x1024) hz]

/-- The first block on the contraction axis stores zeros into the first accumulator, reads them back and adds the
    product of the two operand blocks … -/
theorem sout_A_0 (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .f32) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : cond0_0 i) (hc1 : ¬cond0_1 i) (x0 : Vec F S1024x512 .bf16) (x1 : Vec F S1024x512 .bf16) (x2 : Vec F S16x512 .f32) (x3 : Vec F S1024x16 .f32) (x4 : Vec F S1x1024 .f32) :
    sout0_A_0 c i a3 h3 a4 h4 a5 h5 a6 h6 a7 h7 a8 h8 a9 h9 a10 h10 hc0 hc1 x0 x1 x2 x3 x4 = k0_pay4 x0 x1 (k0_pay1 (F := F)) := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz]

/-- … and likewise into the second. -/
theorem sout_A_1 (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .f32) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : cond0_0 i) (hc1 : ¬cond0_1 i) (x0 : Vec F S1024x512 .bf16) (x1 : Vec F S1024x512 .bf16) (x2 : Vec F S16x512 .f32) (x3 : Vec F S1024x16 .f32) (x4 : Vec F S1x1024 .f32) :
    sout0_A_1 c i a3 h3 a4 h4 a5 h5 a6 h6 a7 h7 a8 h8 a9 h9 a10 h10 hc0 hc1 x0 x1 x2 x3 x4 = k0_pay5 x0 x2 (k0_pay2 (F := F)) := by
  unfold sout0_A_1
  rw [View.read_writes_eq_canon _ _ _ (scover0_A_1 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, h3.read_unread, h5.read_unread, View.ld_unit_zero (S := S1024x512) hz,
    View.ld_unit_zero (S := S16x512) hz]

end Cert.KernelIdeal.Pieces

end
-- ==== Proof.Payload.lean ====
/-
  The body's arithmetic read at an index, on the extended reals: each accumulator update adds a block dot product
  (a change of float format is the identity, a matrix product into a zero accumulator is a plain sum), and the
  epilogue is `(acc + bias) + (low-rank product) · 2`.
-/
import proofs.«174200_j22548578304347_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The output's row coordinate is the left operand's; -/
theorem dotW_lhs0 (j : S1024x1024.Idx) (q : dot_S1024x512_S1024x512_S1024x1024_1_1_0_0_n_n.contr.Idx) : (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- its column coordinate is the right operand's row. -/
theorem dotW_rhs0 (j : S1024x1024.Idx) (q : dot_S1024x512_S1024x512_S1024x1024_1_1_0_0_n_n.contr.Idx) : (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- Into a zero accumulator the product of `lhs` with the transpose of `rhs` is, at `(a, b)`, the dot product of row `a`
    of the one with row `b` of the other. -/
theorem dotW_apply (lhs : FVec Ideal S1024x512 .bf16) (rhs : FVec Ideal S1024x512 .bf16) (a : Fin 1024) (b : Fin 1024) :
    FloatOps.matmul dot_S1024x512_S1024x512_S1024x1024_1_1_0_0_n_n none lhs rhs (constant (F := Ideal) S1024x1024 .f32 0x00000000#32) (ix2 a b)
      = ∑ l : Fin 512, lhs (ix2 a l) * rhs (ix2 b l) := by
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 a b) ((contrEquiv1 dot_S1024x512_S1024x512_S1024x1024_1_1_0_0_n_n 512 rfl rfl).symm k) = ix2 a k := funext fun ax => Fin.ext (by
    match ax with
    | ⟨0, _⟩ => exact dotW_lhs0 _ _
    | ⟨1, _⟩ => exact (dot_S1024x512_S1024x512_S1024x1024_1_1_0_0_n_n.lhsIdx_val_of_single rfl _ _).trans hk)
  have er : dot_S1024x512_S1024x512_S1024x1024_1_1_0_0_n_n.rhsIdx (ix2 a b) ((contrEquiv1 dot_S1024x512_S1024x512_S1024x1024_1_1_0_0_n_n 512 rfl rfl).symm k) = ix2 b k := funext fun ax => Fin.ext (by
    match ax with
    | ⟨0, _⟩ => exact dotW_rhs0 _ _
    | ⟨1, _⟩ => exact (dot_S1024x512_S1024x512_S1024x1024_1_1_0_0_n_n.rhsIdx_val_of_single rfl _ _).trans hk)
  rw [el, er]

/-- The output's row coordinate is the left operand's; -/
theorem dotA_lhs0 (j : S1024x16.Idx) (q : dot_S1024x512_S16x512_S1024x16_1_1_0_0_n_n.contr.Idx) : (dot_S1024x512_S16x512_S1024x16_1_1_0_0_n_n.lhsIdx j q 0).val = (j 0).val := by
  unfold DotDims.lhsIdx
  rw [dif_neg (show ¬(0 : Fin S1024x512.rank) ∈ dot_S1024x512_S16x512_S1024x16_1_1_0_0_n_n.lhsBatch by decide), dif_pos (show (0 : Fin S1024x512.rank) ∈ dot_S1024x512_S16x512_S1024x16_1_1_0_0_n_n.lhsNonContracting by decide)]
  rfl
/-- its column coordinate is the right operand's row. -/
theorem dotA_rhs0 (j : S1024x16.Idx) (q : dot_S1024x512_S16x512_S1024x16_1_1_0_0_n_n.contr.Idx) : (dot_S1024x512_S16x512_S1024x16_1_1_0_0_n_n.rhsIdx j q 0).val = (j 1).val := by
  unfold DotDims.rhsIdx
  rw [dif_neg (show ¬(0 : Fin S16x512.rank) ∈ dot_S1024x512_S16x512_S1024x16_1_1_0_0_n_n.rhsBatch by decide), dif_pos (show (0 : Fin S16x512.rank) ∈ dot_S1024x512_S16x512_S1024x16_1_1_0_0_n_n.rhsNonContracting by decide)]
  rfl
/-- Into a zero accumulator the product of `lhs` with the transpose of `rhs` is, at `(a, b)`, the dot product of row `a`
    of the one with row `b` of the other. -/
theorem dotA_apply (lhs : FVec Ideal S1024x512 .bf16) (rhs : FVec Ideal S16x512 .bf16) (a : Fin 1024) (b : Fin 16) :
    FloatOps.matmul dot_S1024x512_S16x512_S1024x16_1_1_0_0_n_n none lhs rhs (constant (F := Ideal) S1024x16 .f32 0x00000000#32) (ix2 a b)
      = ∑ l : Fin 512, lhs (ix2 a l) * rhs (ix2 b l) := by
  rw [Ideal.matmul_constant_zero_apply, ← Equiv.sum_comp (contrEquiv1 dot_S1024x512_S16x512_S1024x16_1_1_0_0_n_n 512 rfl rfl).symm]
  refine Finset.sum_congr rfl fun k _ => ?_
  have hk := contrEquiv1_symm_val dot_S1024x512_S16x512_S1024x16_1_1_0_0_n_n 512 rfl rfl k
  have el : dot_S1024x512_S16x512_S1024x16_1_1_0_0_n_n.lhsIdx (ix2 a b) ((contrEquiv1 dot_S1024x512_S16x512_S1024x16_1_1_0_0_n_n 512 rfl rfl).symm k) = ix2 a k := funext fun ax => Fin.ext (by
    match ax with
    | ⟨0, _⟩ => exact dotA_lhs0 _ _
    | ⟨1, _⟩ => exact (dot_S1024x512_S16x512_S1024x16_1_1_0_0_n_n.lhsIdx_val_of_single rfl _ _).trans hk)
  have er : dot_S1024x512_S16x512_S1024x16_1_1_0_0_n_n.rhsIdx (ix2 a b) ((contrEquiv1 dot_S1024x512_S16x512_S1024x16_1_1_0_0_n_n 512 rfl rfl).symm k) = ix2 b k := funext fun ax => Fin.ext (by
    match ax with
    | ⟨0, _⟩ => exact dotA_rhs0 _ _
    | ⟨1, _⟩ => exact (dot_S1024x512_S16x512_S1024x16_1_1_0_0_n_n.rhsIdx_val_of_single rfl _ _).trans hk)
  rw [el, er]

/-- The output's row coordinate is the left operand's; -/
theorem dotB_lhs0 (j : S1024x1024.Idx) (q : dot_S1024x16_S1024x16_S1024x1024_1_1_0_0_n_n.contr.Idx) : (dot_S1024x16_S1024x16_S1024x1024_1_1_0_0_n_n.lhsIdx j q 0).val = (j 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
/-- its column coordinate is the right operand's row. -/
theorem dotB_rhs0 (j : S1024x1024.Idx) (q : dot_S1024x16_S1024x16_S1024x1024_1_1_0_0_n_n.contr.Idx) : (dot_S1024x16_S1024x16_S1024x1024_1_1_0_0_n_n.rhsIdx j q 0).val = (j 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
/-- Into a zero accumulator the product of `lhs` with the transpose of `rhs` is, at `(a, b)`, the dot product of row `a`
    of the one with row `b` of the other. -/
theorem dotB_apply (lhs : FVec Ideal S1024x16 .bf16) (rhs : FVec Ideal S1024x16 .bf16) (a : Fin 1024) (b : Fin 1024) :
    FloatOps.matmul dot_S1024x16_S1024x16_S1024x1024_1_1_0_0_n_n none lhs rhs (constant (F := Ideal) S1024x1024 .f32 0x00000000#32) (ix2 a b)
      = ∑ l : Fin 16, lhs (ix2 a l) * rhs (ix2 b l) := by
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 a b) ((contrEquiv1 dot_S1024x16_S1024x16_S1024x1024_1_1_0_0_n_n 16 rfl rfl).symm k) = ix2 a k := funext fun ax => Fin.ext (by
    match ax with
    | ⟨0, _⟩ => exact dotB_lhs0 _ _
    | ⟨1, _⟩ => exact (dot_S1024x16_S1024x16_S1024x1024_1_1_0_0_n_n.lhsIdx_val_of_single rfl _ _).trans hk)
  have er : dot_S1024x16_S1024x16_S1024x1024_1_1_0_0_n_n.rhsIdx (ix2 a b) ((contrEquiv1 dot_S1024x16_S1024x16_S1024x1024_1_1_0_0_n_n 16 rfl rfl).symm k) = ix2 b k := funext fun ax => Fin.ext (by
    match ax with
    | ⟨0, _⟩ => exact dotB_rhs0 _ _
    | ⟨1, _⟩ => exact (dot_S1024x16_S1024x16_S1024x1024_1_1_0_0_n_n.rhsIdx_val_of_single rfl _ _).trans hk)
  rw [el, er]

/-- The zero blocks the accumulators restart from. -/
theorem pay1_apply (y : S1024x1024.Idx) : k0_pay1 (F := Ideal) y = 0 := by
  unfold k0_pay1; rw [shapeCast_self]; exact Ideal.ofBits_zero_f32
theorem pay2_apply (y : S1024x16.Idx) : k0_pay2 (F := Ideal) y = 0 := by
  unfold k0_pay2; rw [shapeCast_self]; exact Ideal.ofBits_zero_f32

/-- The first accumulator's update at `(a, b)`: what it held plus the dot product of row `a` of the row block with
    row `b` of the weight block. -/
theorem pay4_apply (x0 x1 : FVec Ideal S1024x512 .bf16) (acc : FVec Ideal S1024x1024 .f32) (a b : Fin 1024) :
    k0_pay4 (F := Ideal) x0 x1 acc (ix2 a b) = acc (ix2 a b) + ∑ l : Fin 512, x0 (ix2 a l) * x1 (ix2 b l) := by
  unfold k0_pay4 k0_pay3
  dsimp only
  rw [shapeCast_self, shapeCast_self, shapeCast_self]
  exact congrArg (acc (ix2 a b) + ·) (dotW_apply x0 x1 a b)

/-- The second accumulator's update at `(a, q)`: what it held plus the dot product of row `a` of the row block with
    row `q` of the adapter's first factor. -/
theorem pay5_apply (x0 : FVec Ideal S1024x512 .bf16) (x2 : FVec Ideal S16x512 .f32) (acc : FVec Ideal S1024x16 .f32) (a : Fin 1024) (q : Fin 16) :
    k0_pay5 (F := Ideal) x0 x2 acc (ix2 a q) = acc (ix2 a q) + ∑ l : Fin 512, x0 (ix2 a l) * x2 (ix2 q l) := by
  unfold k0_pay5 k0_pay3
  dsimp only
  rw [shapeCast_self, shapeCast_self]
  exact congrArg (acc (ix2 a q) + ·) (dotA_apply x0 (truncf .bf16 x2 bitsLt_bf16_f32) a q)

/-- The epilogue at `(a, b)`. -/
theorem pay6_apply (x3 : FVec Ideal S1024x16 .f32) (s1 : FVec Ideal S1024x16 .f32) (s0 : FVec Ideal S1024x1024 .f32)
    (x4 : FVec Ideal S1x1024 .f32) (a b : Fin 1024) :
    k0_pay6 (F := Ideal) x3 s1 s0 x4 (ix2 a b)
      = (s0 (ix2 a b) + x4 (ix2 (0 : Fin 1) b)) + (∑ q : Fin 16, s1 (ix2 a q) * x3 (ix2 b q)) * Ideal.ofBits .f32 0x40000000#32 := by
  unfold k0_pay6
  rw [shapeCast_self]
  show (s0 (ix2 a b) + broadcastTo S1024x1024 x4 broadcasts_S1x1024_S1024x1024 (ix2 a b))
    + FloatOps.matmul dot_S1024x16_S1024x16_S1024x1024_1_1_0_0_n_n none (truncf .bf16 s1 bitsLt_bf16_f32) (truncf .bf16 x3 bitsLt_bf16_f32)
        (constant (F := Ideal) S1024x1024 .f32 0x00000000#32) (ix2 a b) * Ideal.ofBits .f32 0x40000000#32 = _
  rw [broadcastTo_1b_ab_apply x4 broadcasts_S1x1024_S1024x1024 a b,
    dotB_apply (truncf .bf16 s1 bitsLt_bf16_f32) (truncf .bf16 x3 bitsLt_bf16_f32) a b]
  rfl

end Cert.KernelIdeal.Payload

end
-- ==== Proof.Blocks.lean ====
/-
  The kernel's operands as it finds them, read at an index: each window's block at a grid point is a tile of its
  array (the block's coordinate is the block index times the block's extent plus the coordinate inside the block),
  and the arrays the host prepares before the launch are the arguments re-laid: the activations flattened to
  8192 rows, the bias as one row (the changes of float format are the identity on the extended reals).
-/
import proofs.«174200_j22548578304347_2_alg».proof.Proof.Gen.KernelIdeal.Frame.Runs
import proofs.«174200_j22548578304347_2_alg».proof.Proof.Spec
import Idealize.ShloMosaic.Lib.Pipeline.Value
import Idealize.ShloMosaic.Lib.StableHlo.Run
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Cert.LoraSpec

variable (m : (ℓ : Loc nD τ sig) → Buf (Elt Ideal) ℓ)

/-- The five arrays the kernel's windows tile, as the launch finds them. -/
abbrev Xv (c : Dev nD) : (⟨2, ![8192, 4096]⟩ : Shape).Idx → EReal := V m c main_v1
abbrev Wv (c : Dev nD) : (⟨2, ![4096, 4096]⟩ : Shape).Idx → EReal := V m c main_v2
abbrev Av (c : Dev nD) : (⟨2, ![16, 4096]⟩ : Shape).Idx → EReal := V m c main_arg3
abbrev Bv (c : Dev nD) : (⟨2, ![4096, 16]⟩ : Shape).Idx → EReal := V m c main_arg4
abbrev bv (c : Dev nD) : (⟨2, ![1, 4096]⟩ : Shape).Idx → EReal := V m c main_v3

/-- The grid is 8 row tiles × 4 column tiles × 8 contraction blocks, the contraction block fastest: point `t` is row
    tile `t / 32`, column tile `t / 8 % 4`, contraction block `t % 8`, and each window's block index is made of those. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

/-- The activations' block at point `t`: rows of row tile `t / 32`, columns of contraction block `t % 8`. -/
theorem iblk0_apply (c : Dev nD) (t : Fin cfg0.N) (a : Fin 1024) (l : Fin 512) :
    (iblk m c 0 t : Vec Ideal S1024x512 .bf16) (ix2 a l) = at2 (Xv m c) (t.val / 32 * 1024 + a.val) (t.val % 8 * 512 + l.val) := by
  have hN : t.val < 256 := lt_of_lt_of_eq t.isLt (show cfg0.N = 256 from N_0)
  rw [at2_of_lt _ _ _ (by omega) (by omega)]
  unfold iblk
  rw [View.read_apply]
  show V m c main_v1 (((cfg0.win 0).blk t).view.emb (ix2 a l)) = V m c main_v1 _
  obtain ⟨e0, e1, -⟩ := idx_facts t
  refine congrArg (V m c main_v1) (funext fun ax => Fin.ext ?_)
  match ax with
  | ⟨0, _⟩ => show win0_0.index t (0 : Fin 2) * 1024 + 1 * a.val = t.val / 32 * 1024 + a.val; rw [e0]; omega
  | ⟨1, _⟩ => show win0_0.index t (1 : Fin 2) * 512 + 1 * l.val = t.val % 8 * 512 + l.val; rw [e1]; omega

/-- The weight's block: rows of column tile `t / 8 % 4`, columns of contraction block `t % 8`. -/
theorem iblk1_apply (c : Dev nD) (t : Fin cfg0.N) (b : Fin 1024) (l : Fin 512) :
    (iblk m c 1 t : Vec Ideal S1024x512 .bf16) (ix2 b l) = at2 (Wv m c) (t.val / 8 % 4 * 1024 + b.val) (t.val % 8 * 512 + l.val) := by
  have hN : t.val < 256 := lt_of_lt_of_eq t.isLt (show cfg0.N = 256 from N_0)
  rw [at2_of_lt _ _ _ (by omega) (by omega)]
  unfold iblk
  rw [View.read_apply]
  show V m c main_v2 (((cfg0.win 1).blk t).view.emb (ix2 b l)) = V m c main_v2 _
  obtain ⟨-, -, e0, e1, -⟩ := idx_facts t
  refine congrArg (V m c main_v2) (funext fun ax => Fin.ext ?_)
  match ax with
  | ⟨0, _⟩ => show win0_1.index t (0 : Fin 2) * 1024 + 1 * b.val = t.val / 8 % 4 * 1024 + b.val; rw [e0]; omega
  | ⟨1, _⟩ => show win0_1.index t (1 : Fin 2) * 512 + 1 * l.val = t.val % 8 * 512 + l.val; rw [e1]; omega

/-- The adapter's first factor: all sixteen rows, columns of contraction block `t % 8`. -/
theorem iblk2_apply (c : Dev nD) (t : Fin cfg0.N) (q : Fin 16) (l : Fin 512) :
    (iblk m c 2 t : Vec Ideal S16x512 .f32) (ix2 q l) = at2 (Av m c) q.val (t.val % 8 * 512 + l.val) := by
  have hN : t.val < 256 := lt_of_lt_of_eq t.isLt (show cfg0.N = 256 from N_0)
  rw [at2_of_lt _ _ _ q.isLt (by omega)]
  unfold iblk
  rw [View.read_apply]
  show V m c main_arg3 (((cfg0.win 2).blk t).view.emb (ix2 q l)) = V m c main_arg3 _
  obtain ⟨-, -, -, -, e0, e1, -⟩ := idx_facts t
  refine congrArg (V m c main_arg3) (funext fun ax => Fin.ext ?_)
  match ax with
  | ⟨0, _⟩ => show win0_2.index t (0 : Fin 2) * 16 + 1 * q.val = q.val; rw [e0]; omega
  | ⟨1, _⟩ => show win0_2.index t (1 : Fin 2) * 512 + 1 * l.val = t.val % 8 * 512 + l.val; rw [e1]; omega

/-- The adapter's second factor: rows of column tile `t / 8 % 4`, all sixteen columns. -/
theorem iblk3_apply (c : Dev nD) (t : Fin cfg0.N) (b : Fin 1024) (q : Fin 16) :
    (iblk m c 3 t : Vec Ideal S1024x16 .f32) (ix2 b q) = at2 (Bv m c) (t.val / 8 % 4 * 1024 + b.val) q.val := by
  have hN : t.val < 256 := lt_of_lt_of_eq t.isLt (show cfg0.N = 256 from N_0)
  rw [at2_of_lt _ _ _ (by omega) q.isLt]
  unfold iblk
  rw [View.read_apply]
  show V m c main_arg4 (((cfg0.win 3).blk t).view.emb (ix2 b q)) = V m c main_arg4 _
  obtain ⟨-, -, -, -, -, -, e0, e1, -⟩ := idx_facts t
  refine congrArg (V m c main_arg4) (funext fun ax => Fin.ext ?_)
  match ax with
  | ⟨0, _⟩ => show win0_3.index t (0 : Fin 2) * 1024 + 1 * b.val = t.val / 8 % 4 * 1024 + b.val; rw [e0]; omega
  | ⟨1, _⟩ => show win0_3.index t (1 : Fin 2) * 16 + 1 * q.val = q.val; rw [e1]; omega

/-- The bias row: columns of column tile `t / 8 % 4`. -/
theorem iblk4_apply (c : Dev nD) (t : Fin cfg0.N) (u : Fin 1) (b : Fin 1024) :
    (iblk m c 4 t : Vec Ideal S1x1024 .f32) (ix2 u b) = at2 (bv m c) 0 (t.val / 8 % 4 * 1024 + b.val) := by
  have hN : t.val < 256 := lt_of_lt_of_eq t.isLt (show cfg0.N = 256 from N_0)
  rw [at2_of_lt _ _ _ Nat.one_pos (by omega)]
  unfold iblk
  rw [View.read_apply]
  show V m c main_v3 (((cfg0.win 4).blk t).view.emb (ix2 u b)) = V m c main_v3 _
  obtain ⟨-, -, -, -, -, -, -, -, e0, e1, -⟩ := idx_facts t
  refine congrArg (V m c main_v3) (funext fun ax => Fin.ext ?_)
  match ax with
  | ⟨0, _⟩ => show win0_4.index t (0 : Fin 2) * 1 + 1 * u.val = 0; rw [e0]; omega
  | ⟨1, _⟩ => show win0_4.index t (1 : Fin 2) * 1024 + 1 * b.val = t.val / 8 % 4 * 1024 + b.val; rw [e1]; omega

/-! ## The arrays the host prepares, as functions of the arguments -/

theorem Xv_eq (c : Dev nD) : @Eq (FVec Ideal S8192x4096 .bf16) (V m c main_v1)
    (truncf .bf16 (shapeCast S8192x4096 (m ((c : Thread nD τ).loc main_arg0)) shapeCasts_S4x2048x4096_S8192x4096) bitsLt_bf16_f32) := by
  show StableHlo.after hostOps0 (fun b => m (c, b)) (Proc.devRef .tc main_v1) = _
  after_results
  rfl

theorem Wv_eq (c : Dev nD) : @Eq (FVec Ideal S4096x4096 .bf16) (V m c main_v2)
    (truncf .bf16 (m ((c : Thread nD τ).loc main_arg1) : FVec Ideal S4096x4096 .f32) bitsLt_bf16_f32) := by
  show StableHlo.after hostOps0 (fun b => m (c, b)) (Proc.devRef .tc main_v2) = _
  after_results

theorem bv_eq (c : Dev nD) : @Eq (FVec Ideal S1x4096 .f32) (V m c main_v3)
    (shapeCast S1x4096 (m ((c : Thread nD τ).loc main_arg2)) shapeCasts_S4096_S1x4096) := by
  show StableHlo.after hostOps0 (fun b => m (c, b)) (Proc.devRef .tc main_v3) = _
  after_results
  rfl

/-- Entry `(b, s, k)` of the activations is entry `(2048 b + s, k)` of the flattened array the kernel tiles. -/
theorem X_apply (c : Dev nD) (b : Fin 4) (s : Fin 2048) (k : Fin 4096) :
    m ((c : Thread nD τ).loc main_arg0) (ix3 b s k) = at2 (Xv m c) (b.val * 2048 + s.val) k.val := by
  rw [at2_of_lt _ _ _ (by omega) k.isLt]
  show _ = V m c main_v1 _
  rw [Xv_eq, truncf_apply]
  exact (shapeCast_apply _ shapeCasts_S4x2048x4096_S8192x4096 _ (ix3 b s k) (by
    rw [Shape.rowMajor_val_three, Shape.rowMajor_val_two]
    show (b.val * 2048 + s.val) * 4096 + k.val = (b.val * 2048 + s.val) * 4096 + k.val
    rfl)).symm

theorem W_apply (c : Dev nD) (n : Fin 4096) (k : Fin 4096) :
    m ((c : Thread nD τ).loc main_arg1) (ix2 n k) = at2 (Wv m c) n.val k.val := by
  rw [at2_val]
  show _ = V m c main_v2 _
  rw [Wv_eq, truncf_apply]

theorem A_apply (c : Dev nD) (q : Fin 16) (k : Fin 4096) :
    m ((c : Thread nD τ).loc main_arg3) (ix2 q k) = at2 (Av m c) q.val k.val := by
  rw [at2_val]
  show _ = V m c main_arg3 _
  rw [V_main_arg3]

theorem B_apply (c : Dev nD) (n : Fin 4096) (q : Fin 16) :
    m ((c : Thread nD τ).loc main_arg4) (ix2 n q) = at2 (Bv m c) n.val q.val := by
  rw [at2_val]
  show _ = V m c main_arg4 _
  rw [V_main_arg4]

theorem bias_apply (c : Dev nD) (n : Fin 4096) :
    m ((c : Thread nD τ).loc main_arg2) (ix1 n) = at2 (bv m c) 0 n.val := by
  rw [at2_of_lt _ _ _ Nat.one_pos n.isLt]
  show _ = V m c main_v3 _
  rw [bv_eq]
  exact (shapeCast_a_1a_apply _ shapeCasts_S4096_S1x4096 _ n).symm

end Cert.KernelIdeal.Blocks

end
-- ==== Proof.Accum.lean ====
/-
  What the two carried accumulators and the output block hold after each grid point, in closed form: along the
  contraction axis the first accumulator of tile `(i, j)` holds, after block `k`, the dot products of the tile's rows
  of the activations with the tile's rows of the weight over blocks `0 … k` (the second likewise against the adapter's
  first factor), by induction on the point; after the last block these are the whole dot products, and the output
  block is the layer's result on the tile.
-/
import proofs.«174200_j22548578304347_2_alg».proof.Proof.Gen.KernelIdeal.Frame
import proofs.«174200_j22548578304347_2_alg».proof.Proof.Spec
import proofs.«174200_j22548578304347_2_alg».proof.Proof.Pieces
import proofs.«174200_j22548578304347_2_alg».proof.Proof.Payload
import proofs.«174200_j22548578304347_2_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx Cert.LoraSpec Cert.KernelIdeal.Blocks Cert.KernelIdeal.Pieces Cert.KernelIdeal.Payload

variable (m : (ℓ : Loc nD τ sig) → Buf (Elt Ideal) ℓ)

/-- The first accumulator after point `n`: entry `(a, b)` is the dot product, through contraction block `n % 8`, of row
    `a` of row tile `n / 32` of the activations with row `b` of column tile `n / 8 % 4` of the weight. -/
def acc0 (c : Dev nD) (n : Nat) : Vec Ideal S1024x1024 .f32 := fun y =>
  accDot (at2 (Xv m c) (n / 32 * 1024 + (y 0).val)) (at2 (Wv m c) (n / 8 % 4 * 1024 + (y 1).val)) (n % 8)

/-- The second accumulator after point `n`: the same rows of the activations against row `q` of the adapter's first factor. -/
def acc1 (c : Dev nD) (n : Nat) : Vec Ideal S1024x16 .f32 := fun y =>
  accDot (at2 (Xv m c) (n / 32 * 1024 + (y 0).val)) (at2 (Av m c) (y 1).val) (n % 8)

/-- The layer's result on the tile of point `n`. -/
def outBlk (c : Dev nD) (n : Nat) : Vec Ideal S1024x1024 .f32 := fun y =>
  lora (Xv m c) (Wv m c) (Av m c) (Bv m c) (bv m c) (n / 32 * 1024 + (y 0).val) (n / 8 % 4 * 1024 + (y 1).val)

theorem acc0_ix2 (c : Dev nD) (n : Nat) (a b : Fin 1024) : acc0 m c n (ix2 a b)
    = accDot (at2 (Xv m c) (n / 32 * 1024 + a.val)) (at2 (Wv m c) (n / 8 % 4 * 1024 + b.val)) (n % 8) := rfl
theorem acc1_ix2 (c : Dev nD) (n : Nat) (a : Fin 1024) (q : Fin 16) : acc1 m c n (ix2 a q)
    = accDot (at2 (Xv m c) (n / 32 * 1024 + a.val)) (at2 (Av m c) q.val) (n % 8) := rfl
theorem outBlk_ix2 (c : Dev nD) (n : Nat) (a b : Fin 1024) : outBlk m c n (ix2 a b)
    = lora (Xv m c) (Wv m c) (Av m c) (Bv m c) (bv m c) (n / 32 * 1024 + a.val) (n / 8 % 4 * 1024 + b.val) := rfl

/-- An update of the first accumulator, over any operand blocks whose rows are read off two families of rows at
    contraction block `kb`: what it held plus the block's share of the dot product. -/
theorem upd0 (x0 x1 : FVec Ideal S1024x512 .bf16) (prev : FVec Ideal S1024x1024 .f32) (fX fW : Fin 1024 → Nat → EReal) (kb : Nat)
    (h0 : ∀ (a : Fin 1024) (l : Fin 512), x0 (ix2 a l) = fX a (kb * 512 + l.val))
    (h1 : ∀ (b : Fin 1024) (l : Fin 512), x1 (ix2 b l) = fW b (kb * 512 + l.val)) (a b : Fin 1024) :
    k0_pay4 (F := Ideal) x0 x1 prev (ix2 a b) = prev (ix2 a b) + blockDot (fX a) (fW b) kb := by
  rw [pay4_apply]
  unfold blockDot
  exact congrArg (prev (ix2 a b) + ·) (Finset.sum_congr rfl fun l _ => by rw [h0 a l, h1 b l])

/-- The same for the second accumulator. -/
theorem upd1 (x0 : FVec Ideal S1024x512 .bf16) (x2 : FVec Ideal S16x512 .f32) (prev : FVec Ideal S1024x16 .f32)
    (fX : Fin 1024 → Nat → EReal) (fA : Fin 16 → Nat → EReal) (kb : Nat)
    (h0 : ∀ (a : Fin 1024) (l : Fin 512), x0 (ix2 a l) = fX a (kb * 512 + l.val))
    (h2 : ∀ (q : Fin 16) (l : Fin 512), x2 (ix2 q l) = fA q (kb * 512 + l.val)) (a : Fin 1024) (q : Fin 16) :
    k0_pay5 (F := Ideal) x0 x2 prev (ix2 a q) = prev (ix2 a q) + blockDot (fX a) (fA q) kb := by
  rw [pay5_apply]
  unfold blockDot
  exact congrArg (prev (ix2 a q) + ·) (Finset.sum_congr rfl fun l _ => by rw [h0 a l, h2 q l])

/-- At the first contraction block the accumulators restart: zero plus the block's share. -/
theorem first0 (c : Dev nD) (t : Fin cfg0.N) (h0 : t.val % 8 = 0) :
    k0_pay4 (F := Ideal) (iblk m c 0 t) (iblk m c 1 t) (k0_pay1 (F := Ideal)) = acc0 m c t.val := by
  funext y
  obtain ⟨a, b, rfl⟩ : ∃ (a b : Fin 1024), y = ix2 a b := ⟨y 0, y 1, eq_ix2 y⟩
  refine (upd0 (iblk m c 0 t) (iblk m c 1 t) (k0_pay1 (F := Ideal)) (fun a => at2 (Xv m c) (t.val / 32 * 1024 + a.val))
    (fun b => at2 (Wv m c) (t.val / 8 % 4 * 1024 + b.val)) (t.val % 8) (iblk0_apply m c t) (iblk1_apply m c t) a b).trans ?_
  rw [pay1_apply, zero_add, acc0_ix2, h0, accDot_zero]

theorem first1 (c : Dev nD) (t : Fin cfg0.N) (h0 : t.val % 8 = 0) :
    k0_pay5 (F := Ideal) (iblk m c 0 t) (iblk m c 2 t) (k0_pay2 (F := Ideal)) = acc1 m c t.val := by
  funext y
  obtain ⟨a, q, rfl⟩ : ∃ (a : Fin 1024) (q : Fin 16), y = ix2 a q := ⟨y 0, y 1, eq_ix2 y⟩
  refine (upd1 (iblk m c 0 t) (iblk m c 2 t) (k0_pay2 (F := Ideal)) (fun a => at2 (Xv m c) (t.val / 32 * 1024 + a.val))
    (fun q => at2 (Av m c) q.val) (t.val % 8) (iblk0_apply m c t) (iblk2_apply m c t) a q).trans ?_
  rw [pay2_apply, zero_add, acc1_ix2, h0, accDot_zero]

/-- At a later contraction block each accumulator adds the block's share to what the point before left: the point
    before is on the same tile, one contraction block earlier. -/
theorem step0 (c : Dev nD) (t : Fin cfg0.N) (h0 : ¬t.val % 8 = 0) (p : Nat) (hp : p + 1 = t.val)
    (prev : FVec Ideal S1024x1024 .f32) (hprev : prev = acc0 m c p) :
    k0_pay4 (F := Ideal) (iblk m c 0 t) (iblk m c 1 t) prev = acc0 m c t.val := by
  subst hprev
  funext y
  obtain ⟨a, b, rfl⟩ : ∃ (a b : Fin 1024), y = ix2 a b := ⟨y 0, y 1, eq_ix2 y⟩
  refine (upd0 (iblk m c 0 t) (iblk m c 1 t) (acc0 m c p) (fun a => at2 (Xv m c) (t.val / 32 * 1024 + a.val))
    (fun b => at2 (Wv m c) (t.val / 8 % 4 * 1024 + b.val)) (t.val % 8) (iblk0_apply m c t) (iblk1_apply m c t) a b).trans ?_
  rw [acc0_ix2, acc0_ix2]
  have e1 : t.val / 32 = p / 32 := by omega
  have e2 : t.val / 8 % 4 = p / 8 % 4 := by omega
  have e3 : t.val % 8 = p % 8 + 1 := by omega
  rw [e1, e2, e3, accDot_succ]

theorem step1 (c : Dev nD) (t : Fin cfg0.N) (h0 : ¬t.val % 8 = 0) (p : Nat) (hp : p + 1 = t.val)
    (prev : FVec Ideal S1024x16 .f32) (hprev : prev = acc1 m c p) :
    k0_pay5 (F := Ideal) (iblk m c 0 t) (iblk m c 2 t) prev = acc1 m c t.val := by
  subst hprev
  funext y
  obtain ⟨a, q, rfl⟩ : ∃ (a : Fin 1024) (q : Fin 16), y = ix2 a q := ⟨y 0, y 1, eq_ix2 y⟩
  refine (upd1 (iblk m c 0 t) (iblk m c 2 t) (acc1 m c p) (fun a => at2 (Xv m c) (t.val / 32 * 1024 + a.val))
    (fun q => at2 (Av m c) q.val) (t.val % 8) (iblk0_apply m c t) (iblk2_apply m c t) a q).trans ?_
  rw [acc1_ix2, acc1_ix2]
  have e1 : t.val / 32 = p / 32 := by omega
  have e3 : t.val % 8 = p % 8 + 1 := by omega
  rw [e1, e3, accDot_succ]

/-- THE ACCUMULATORS, POINT BY POINT: after every grid point the two carried accumulators hold the dot products through
    that point's contraction block — by induction on the point. -/
theorem scratch_eq (c : Dev nD) : ∀ (n : ℕ) (h : n < cfg0.N),
    (outsAt0 m c n h).2.1 = acc0 m c n ∧ (outsAt0 m c n h).2.2 = acc1 m c n
  | 0, h => by
    have h0 : (⟨0, h⟩ : Fin cfg0.N).val % 8 = 0 := rfl
    have h1 : ¬(⟨0, h⟩ : Fin cfg0.N).val % 8 = 7 := by show ¬0 % 8 = 7; decide
    rw [outsAt0_A m c ⟨0, h⟩ h0 h1]
    dsimp only
    exact ⟨(sout_A_0 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩)).trans (first0 m c ⟨0, h⟩ h0),
      (sout_A_1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩)).trans (first1 m c ⟨0, h⟩ h0)⟩
  | n + 1, h => by
    have ih := scratch_eq c n (Nat.lt_of_succ_lt h)
    by_cases h0 : (⟨n + 1, h⟩ : Fin cfg0.N).val % 8 = 0
    · have h1 : ¬(⟨n + 1, h⟩ : Fin cfg0.N).val % 8 = 7 := by dsimp only at h0 ⊢; omega
      rw [outsAt0_A m c ⟨n + 1, h⟩ h0 h1]
      dsimp only
      exact ⟨(sout_A_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)).trans (first0 m c ⟨n + 1, h⟩ h0),
        (sout_A_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)).trans (first1 m c ⟨n + 1, h⟩ h0)⟩
    · by_cases h1 : (⟨n + 1, h⟩ : Fin cfg0.N).val % 8 = 7
      · rw [outsAt0_C m c ⟨n + 1, h⟩ h0 h1]
        dsimp only
        exact ⟨(sout_C_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) _ _).trans (step0 m c ⟨n + 1, h⟩ h0 n rfl _ ih.1),
          (sout_C_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) _ _).trans (step1 m c ⟨n + 1, h⟩ h0 n rfl _ ih.2)⟩
      · rw [outsAt0_B m c ⟨n + 1, h⟩ h0 h1]
        dsimp only
        exact ⟨(sout_B_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) _ _).trans (step0 m c ⟨n + 1, h⟩ h0 n rfl _ ih.1),
          (sout_B_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) _ _).trans (step1 m c ⟨n + 1, h⟩ h0 n rfl _ ih.2)⟩

/-- THE OUTPUT BLOCK at a point of the last contraction block: the layer's result on the point's tile. -/
theorem out_eq (c : Dev nD) (t : Fin cfg0.N) (h1 : t.val % 8 = 7) :
    (outsAt0 m c t.val t.isLt).1 = outBlk m c t.val := by
  have h0 : ¬t.val % 8 = 0 := by omega
  have hp : t.val - 1 + 1 = t.val := by omega
  have ih := scratch_eq m c (t.val - 1) (Nat.lt_of_le_of_lt (Nat.sub_le _ _) t.isLt)
  rw [outsAt0_C m c t h0 h1]
  dsimp only
  refine (out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) _ _).trans ?_
  rw [step0 m c t h0 (t.val - 1) hp _ ih.1, step1 m c t h0 (t.val - 1) hp _ ih.2]
  funext y
  obtain ⟨a, b, rfl⟩ : ∃ (a b : Fin 1024), y = ix2 a b := ⟨y 0, y 1, eq_ix2 y⟩
  refine (pay6_apply (iblk m c 3 t) (acc1 m c t.val) (acc0 m c t.val) (iblk m c 4 t) a b).trans ?_
  have eB : ∀ q : Fin 16, (iblk m c 3 t : FVec Ideal S1024x16 .f32) (ix2 b q) = at2 (Bv m c) (t.val / 8 % 4 * 1024 + b.val) q.val :=
    fun q => iblk3_apply m c t b q
  have eb : (iblk m c 4 t : FVec Ideal S1x1024 .f32) (ix2 (0 : Fin 1) b) = at2 (bv m c) 0 (t.val / 8 % 4 * 1024 + b.val) :=
    iblk4_apply m c t 0 b
  rw [eb, acc0_ix2, h1, accDot_last, outBlk_ix2]
  unfold lora
  refine congrArg (fun z => _ + z * two) (Finset.sum_congr rfl fun q _ => ?_)
  rw [eB q, acc1_ix2, h1, accDot_last]

end Cert.KernelIdeal.Accum

end
-- ==== Proof.KValue.lean ====
/-
  The kernel's result array: every tile of the launch's output is written back once, at its last contraction block,
  holding the layer's result on the tile; the tiles cover the 8192 × 4096 array, so the array ends as the layer's
  result, and the host's reshape after the launch folds its rows back to the activations' leading axes.
-/
import proofs.«174200_j22548578304347_2_alg».proof.Proof.Accum
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.LoraSpec Cert.KernelIdeal.Blocks Cert.KernelIdeal.Accum
open Idealize.ShloMosaic.Pipeline (Dat)

variable (m : (ℓ : Loc nD τ sig) → Buf (Elt Ideal) ℓ) (ρ : Dev nD → PrngReg)

/-- The launch's result array: entry `(r, n)` is the layer's result there. -/
def Gout (c : Dev nD) : S8192x4096.Idx → EReal := fun i =>
  lora (Xv m c) (Wv m c) (Av m c) (Bv m c) (bv m c) (i 0).val (i 1).val

/-- WHAT A POINT OF THE LAST CONTRACTION BLOCK WRITES BACK is its tile of `Gout`. -/
theorem flushed_eq (c : Dev nD) (t : Fin cfg0.N) (hf : (cfg0.win 5).flush t = true) :
    (dats m 0 c).flushed 5 t = ((cfg0.win 5).blk t).view.read (Elt Ideal) (Gout m c) := by
  have h7 : t.val % 8 = 7 := (flush0_5 t).mp hf
  show (cfg0.win 5).cut (grid0.coords t) ((dats m 0 c).after 5 t) = _
  rw [after0_5, out_eq m c t h7]
  obtain ⟨-, -, -, -, -, -, -, -, -, -, e0, e1⟩ := idx_facts t
  funext j
  rw [View.read_apply]
  show outBlk m c t.val j = Gout m c (((cfg0.win 5).blk t).view.emb j)
  have q0 : ((((cfg0.win 5).blk t).view.emb j) 0).val = t.val / 32 * 1024 + (j 0).val := by
    show win0_5.index t (0 : Fin 2) * 1024 + 1 * (j 0).val = _
    rw [e0]; omega
  have q1 : ((((cfg0.win 5).blk t).view.emb j) 1).val = t.val / 8 % 4 * 1024 + (j 1).val := by
    show win0_5.index t (1 : Fin 2) * 1024 + 1 * (j 1).val = _
    rw [e1]; omega
  unfold Gout outBlk
  rw [q0, q1]

/-- An index of the array is in point `t`'s tile iff each coordinate is in the tile's range on its axis. -/
theorem mem_blk (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4).slice (win0_5.rect t)).set ↔ _
  rw [View.set_slice_whole, Rect.mem_set_unit]
  exact Iff.rfl

/-- Every entry is in the tile of some point that writes back: row tile `r / 1024`, column tile `n / 1024`, last
    contraction block. -/
theorem cover (i : S8192x4096.Idx) :
    ∃ t : Fin cfg0.N, (cfg0.win 5).flush t = true ∧ i ∈ ((cfg0.win 5).blk t).view.set := by
  have hi0 : (i 0).val < 8192 := idx2_lt0 i
  have hi1 : (i 1).val < 4096 := idx2_lt1 i
  have hN : cfg0.N = 256 := N_0
  obtain ⟨t, ht⟩ : ∃ t : Fin cfg0.N, t.val = (i 0).val / 1024 * 32 + (i 1).val / 1024 * 8 + 7 :=
    ⟨⟨(i 0).val / 1024 * 32 + (i 1).val / 1024 * 8 + 7, by omega⟩, rfl⟩
  obtain ⟨-, -, -, -, -, -, -, -, -, -, e0, e1⟩ := idx_facts t
  refine ⟨t, (flush0_5 t).mpr (by omega), ?_⟩
  rw [mem_blk]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1024 ≤ (i 1).val ∧ (i 1).val < win0_5.index t (1 : Fin 2) * 1024 + 1024
    rw [e1]; omega

/-- So the launch's result array ends holding `Gout`. -/
theorem final (c : Dev nD) : (dats m 0 c).arrAt 5 cfg0.N = Gout m c :=
  (dats m 0 c).arrAt_eq_of_cover 5 (Gout m c) (flushed_eq m c) cover

/-- The program's result: the host's reshape of the launch's result array. -/
def result (c : Dev nD) : S4x2048x4096.Idx → EReal :=
  shapeCast S4x2048x4096 (Gout m c) shapeCasts_S8192x4096_S4x2048x4096

theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = Gout m c := (Pipeline.withArrays_arr spec0 launch0.win.arr_inj c _ _ 5).trans (final m c)
  rw [e]
  rfl

/-- The run, read: the program's result at `result`, the arguments unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.KValue

end
-- ==== Proof.RefValue.lean ====
/-
  The reference's result at an index, on the extended reals: the three contractions as plain sums, the bias row
  broadcast over the leading axes, the adapter's product scaled by 2 — its operations read one at a time.
-/
import proofs.«174200_j22548578304347_2_alg».proof.Proof.Gen.ReferenceIdeal.Read
import Idealize.ShloMosaic.Lib.ValueIdx

noncomputable section

namespace Cert.ReferenceIdeal.RefValue

open Cert.ReferenceIdeal Cert.ReferenceIdeal.Read Idealize.ShloMosaic Idealize.ShloMosaic.ValueIdx

/-- Entry `(b, s, o)` of the reference's result: `(Σₖ x·W + bias) + (Σ_q (Σₖ x·A)·B)·2`. -/
theorem ref_apply (x0 : FVec Ideal S4x2048x4096 .f32) (x1 : FVec Ideal S4096x4096 .f32) (x2 : FVec Ideal S4096 .f32)
    (x3 : FVec Ideal S16x4096 .f32) (x4 : FVec Ideal S4096x16 .f32) (b : Fin 4) (s : Fin 2048) (o : Fin 4096) :
    val_main_v8 (F := Ideal) x0 x1 x2 x3 x4 (ix3 b s o)
      = ((∑ k : Fin 4096, x0 (ix3 b s k) * x1 (ix2 o k)) + x2 (ix1 o))
        + (∑ q : Fin 16, (∑ k : Fin 4096, x0 (ix3 b s k) * x3 (ix2 q k)) * x4 (ix2 o q)) * Ideal.ofBits .f32 0x40000000#32 := by
  have l0 : ∀ k : Fin 4096, lidx_main_v0 (ix3 b s o) k = ix3 b s k := fun k => funext fun a => Fin.ext (by
    match a with | ⟨0, _⟩ => rfl | ⟨1, _⟩ => rfl | ⟨2, _⟩ => rfl)
  have r0 : ∀ k : Fin 4096, ridx_main_v0 (ix3 b s o) k = ix2 o k := fun k => funext fun a => Fin.ext (by
    match a with | ⟨0, _⟩ => rfl | ⟨1, _⟩ => rfl)
  have i1 : idx_main_v1 (idx_main_v2 (ix3 b s o)) = ix1 o := funext fun a => Fin.ext (by
    match a with | ⟨0, _⟩ => rfl)
  have l5 : ∀ q : Fin 16, lidx_main_v5 (ix3 b s o) q = ix3 b s q := fun q => funext fun a => Fin.ext (by
    match a with | ⟨0, _⟩ => rfl | ⟨1, _⟩ => rfl | ⟨2, _⟩ => rfl)
  have r5 : ∀ q : Fin 16, ridx_main_v5 (ix3 b s o) q = ix2 o q := fun q => funext fun a => Fin.ext (by
    match a with | ⟨0, _⟩ => rfl | ⟨1, _⟩ => rfl)
  have l4 : ∀ (q : Fin 16) (k : Fin 4096), lidx_main_v4 (ix3 b s q) k = ix3 b s k := fun q k => funext fun a => Fin.ext (by
    match a with | ⟨0, _⟩ => rfl | ⟨1, _⟩ => rfl | ⟨2, _⟩ => rfl)
  have r4 : ∀ (q : Fin 16) (k : Fin 4096), ridx_main_v4 (ix3 b s q) k = ix2 q k := fun q k => funext fun a => Fin.ext (by
    match a with | ⟨0, _⟩ => rfl | ⟨1, _⟩ => rfl)
  rw [val_main_v8_apply, val_main_v3_apply, val_main_v7_apply, val_main_v0_apply, val_main_v2_apply, val_main_v1_apply,
    val_main_v5_apply, val_main_v6_apply, val_main_cst_apply]
  simp only [val_main_v4_apply, l0, r0, i1, l5, r5, l4, r4, Ideal.addf_def, Ideal.mulf_def, Ideal.ofBits_def]

end Cert.ReferenceIdeal.RefValue

end
-- ==== Proof.Bridge.lean ====
/-
  The two programs compute one function: entry `(b, s, o)` of the reference's result and of the kernel's (row
  `2048 b + s`, column `o` of the launch's result array) are both `(Σₖ x·W + bias) + (Σ_q (Σₖ x·A)·B)·2` of the
  same entries of the arguments.
-/
import proofs.«174200_j22548578304347_2_alg».proof.Proof.KValue
import proofs.«174200_j22548578304347_2_alg».proof.Proof.RefValue

noncomputable section

namespace Cert.Proof.Bridge

open Idealize.ShloMosaic Idealize.ShloMosaic.TcCoe Idealize.SL.Sem Idealize.ShloMosaic.ValueIdx
open Cert.LoraSpec Cert.KernelIdeal.Blocks Cert.KernelIdeal.KValue

variable (m : (ℓ : Loc Cert.KernelIdeal.nD Cert.KernelIdeal.τ Cert.KernelIdeal.sig) → Buf (Elt Ideal) ℓ)

/-- The kernel program's result at `(b, s, o)`: the reshape reads the launch's array at row `2048 b + s`. -/
theorem result_apply (c : Dev Cert.KernelIdeal.nD) (b : Fin 4) (s : Fin 2048) (o : Fin 4096) :
    result m c (ix3 b s o) = lora (Xv m c) (Wv m c) (Av m c) (Bv m c) (bv m c) (b.val * 2048 + s.val) o.val := by
  unfold result
  exact shapeCast_apply (Gout m c) _ (ix3 b s o) (ix2 ⟨b.val * 2048 + s.val, by omega⟩ o) (by
    rw [Shape.rowMajor_val_two, Shape.rowMajor_val_three]
    show (b.val * 2048 + s.val) * 4096 + o.val = (b.val * 2048 + s.val) * 4096 + o.val
    rfl)

/-- The reference's result, computed from the kernel program's arguments, is the kernel program's result. -/
theorem ref_is_result (c : Dev Cert.KernelIdeal.nD) :
    Cert.ReferenceIdeal.Read.val_main_v8 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = result m c := by
  funext i
  obtain ⟨b, s, o, rfl⟩ : ∃ (b : Fin 4) (s : Fin 2048) (o : Fin 4096), i = ix3 b s o := ⟨i 0, i 1, i 2, eq_ix3 i⟩
  rw [Cert.ReferenceIdeal.RefValue.ref_apply, result_apply]
  unfold lora
  simp only [X_apply m c, W_apply m c, A_apply m c, B_apply m c, bias_apply m c]

end Cert.Proof.Bridge

end
-- ==== Proof.lean ====
/-
  A linear layer with a low-rank adapter, `x·Wᵀ + b + ((x·Aᵀ)·Bᵀ)·2`, as a tiled kernel against its plain
  reference, on the extended reals.

  The kernel walks a grid of 8 row tiles × 4 column tiles × 8 contraction blocks. Along the contraction axis it
  carries two accumulators: the tile's partial `x·Wᵀ` and the row tile's partial `x·Aᵀ`, each restarted from zero at the
  first block and increased by the block's product at every block; at the last block it writes the tile
  `(acc + b) + (acc' ·Bᵀ)·2`. The reference contracts each whole axis at once. The two agree because a sum over 4096
  entries is the sum of the eight sums over its consecutive blocks of 512 entries — associativity and commutativity of
  the extended reals' addition, which holds at the infinities too, so the inputs' finiteness is never used — and
  because the two programs group the remaining three terms identically. The changes of float format on the way into
  the matrix unit are the identity on the extended reals, and the scale 2 is the same literal on both sides.

  The frames of the two kernel programs are the generated ones; the reference's frame is its generated run. The ideal
  pass rewrote nothing, so `preserves` is trivial.
-/
import proofs.«174200_j22548578304347_2_alg».proof.Defs
import proofs.«174200_j22548578304347_2_alg».proof.Proof.Gen.Kernel
import proofs.«174200_j22548578304347_2_alg».proof.Proof.Gen.Kernel.Skeleton
import proofs.«174200_j22548578304347_2_alg».proof.Proof.Gen.Kernel.Launch
import proofs.«174200_j22548578304347_2_alg».proof.Proof.Gen.Kernel.Points
import proofs.«174200_j22548578304347_2_alg».proof.Proof.Gen.Kernel.Frame
import proofs.«174200_j22548578304347_2_alg».proof.Proof.Gen.KernelIdeal
import proofs.«174200_j22548578304347_2_alg».proof.Proof.Gen.KernelIdeal.Skeleton
import proofs.«174200_j22548578304347_2_alg».proof.Proof.Gen.KernelIdeal.Launch
import proofs.«174200_j22548578304347_2_alg».proof.Proof.Gen.KernelIdeal.Points
import proofs.«174200_j22548578304347_2_alg».proof.Proof.Gen.KernelIdeal.Frame
import proofs.«174200_j22548578304347_2_alg».proof.Proof.Gen.ReferenceIdeal
import proofs.«174200_j22548578304347_2_alg».proof.Proof.Gen.ReferenceIdeal.Run
import proofs.«174200_j22548578304347_2_alg».proof.Proof.Gen.ReferenceIdeal.Read
import proofs.«174200_j22548578304347_2_alg».proof.Proof.Gen.Pre_finite_inputs
import proofs.«174200_j22548578304347_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's result: the kernel program by its run read through the accumulators' closed
    form, the reference by its run read one operation at a time, from arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  exact Cert.Proof.Bridge.ref_is_result m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
